-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S64x4096 : Shape := ⟨2, ![64, 4096]⟩
abbrev S64 : Shape := ⟨1, ![64]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x4096 .f32) (main_arg1 : FVec F S64x4096 .f32) (main_arg2 : FVec F S64 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x4096 : Shape := ⟨2, ![8192, 4096]⟩
abbrev S64x4096 : Shape := ⟨2, ![64, 4096]⟩
abbrev S64 : Shape := ⟨1, ![64]⟩
abbrev S1x64 : Shape := ⟨2, ![1, 64]⟩
abbrev S8192x64 : Shape := ⟨2, ![8192, 64]⟩
abbrev S384x4096 : Shape := ⟨2, ![384, 4096]⟩
abbrev S384x64 : Shape := ⟨2, ![384, 64]⟩
abbrev S384 : Shape := ⟨1, ![384]⟩
abbrev S384x1 : Shape := ⟨2, ![384, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S384x4096, .f32⟩
  | .local _ .vmem, ⟨1, _⟩ => ⟨S384x4096, .f32⟩
  | .local _ .vmem, ⟨2, _⟩ => ⟨S64x4096, .f32⟩
  | .local _ .vmem, ⟨3, _⟩ => ⟨S1x64, .f32⟩
  | .local _ .vmem, ⟨4, _⟩ => ⟨S384x64, .f32⟩
  | .local _ .vmem, ⟨5, _⟩ => ⟨S384x64, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S384x4096_S384x4096_0_0 : ∀ a, (![0, 0] : Fin 2 → Nat) a + S384x4096.size a ≤ S384x4096.size a
  h_S384x4096 : 0 < S384x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S384x64 : S1x64.Broadcasts S384x64
  reduces_S384x64_S384 : S384x64.Reduces [1] S384
  shapeCasts_S384_S384x1 : S384.ShapeCasts S384x1
  broadcasts_S384x1_S384x64 : S384x1.Broadcasts S384x64
  inb_S384x64_S384x64_0_0 : ∀ a, (![0, 0] : Fin 2 → Nat) a + S384x64.size a ≤ S384x64.size a
  h_S384x64 : 0 < S384x64.numel
  dot_S384x4096_S64x4096_S384x64_1_1_0_0_n_n_wf : DotDims.WF S384x4096 S64x4096 S384x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x4096.size a < S8192x4096.size a
  hwx0_0 : ∀ i : grid0.Coords, EltTy.bits .f32 = 32 ∨ (Rect.unit (s := S8192x4096) (fun a => cc0_transform_0 i a * S384x4096.size a) (fun a => (Pipeline.Clip.of (cc0_transform_0 i a) (S384x4096.size a) (S8192x4096.size a)).extent (S384x4096.size a)) fun a => Pipeline.Clip.inb (Pipeline.Clip.ok_of (hstart0_0 i a))).WholeWords (EltTy.packing .f32)
  hwxs0_0 : ∀ i : grid0.Coords, EltTy.bits .f32 = 32 ∨ (Rect.unit (s := S384x4096) (fun _ => 0) (fun a => (Pipeline.Clip.of (cc0_transform_0 i a) (S384x4096.size a) (S8192x4096.size a)).extent (S384x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S384x64.size a < S8192x64.size a
  hwx0_3 : ∀ i : grid0.Coords, EltTy.bits .f32 = 32 ∨ (Rect.unit (s := S8192x64) (fun a => cc0_transform_3 i a * S384x64.size a) (fun a => (Pipeline.Clip.of (cc0_transform_3 i a) (S384x64.size a) (S8192x64.size a)).extent (S384x64.size a)) fun a => Pipeline.Clip.inb (Pipeline.Clip.ok_of (hstart0_3 i a))).WholeWords (EltTy.packing .f32)
  hwxs0_3 : ∀ i : grid0.Coords, EltTy.bits .f32 = 32 ∨ (Rect.unit (s := S384x64) (fun _ => 0) (fun a => (Pipeline.Clip.of (cc0_transform_3 i a) (S384x64.size a) (S8192x64.size a)).extent (S384x64.size a)) fun a => (Nat.zero_add _).trans_le (Pipeline.Clip.extent_le (Pipeline.Clip.ok_of (hstart0_3 i a)))).WholeWords (EltTy.packing .f32)

variable [Facts₀]

def dot_S384x4096_S64x4096_S384x64_1_1_0_0_n_n : DotDims S384x4096 S64x4096 S384x64 where
  lhsContracting := [1]
  rhsContracting := [1]
  lhsNonContracting := [0]
  rhsNonContracting := [0]
  lhsBatch := []
  rhsBatch := []
  wf := dot_S384x4096_S64x4096_S384x64_1_1_0_0_n_n_wf

abbrev win0_0 : Pipeline.Window sig grid0 :=
  Pipeline.Window.ofSpecClip (Memref.whole main_arg0) S384x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S384x64.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S64x4096 : Shape := ⟨2, ![64, 4096]⟩
abbrev S64 : Shape := ⟨1, ![64]⟩
abbrev S4096x64 : Shape := ⟨2, ![4096, 64]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S8192x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x64, .f32⟩
  | .hbm, ⟨21, _⟩ => ⟨S8192x64, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x4096_S4096x64_S8192x64_1_0_0_1_n_n_wf : DotDims.WF S8192x4096 S4096x64 S8192x64 [1] [0] [0] [1] [] []

variable [Facts₀]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf

class Facts : Prop extends Facts₀ where

variable [Facts]
-- ==== Proof.KernelBody.lean ====
/-
  The router kernel's body, once for any float instance: what one grid point does to its four staging buffers,
  and from it that the whole program runs to the end, faults nowhere and leaves its three argument arrays as
  they were.

  One grid point handles 384 token rows. Its body loads the staged block of `x` (384 rows of 4096), the whole
  weight matrix (64 rows of 4096) and the bias row (1 by 64), forms the 384 by 64 logits `x · Wᵀ + b`,
  exponentiates them, divides each row by its own sum, and stores the 384 by 64 result over the whole output
  staging buffer. The body's arithmetic is the single pure term `k0_pay1` of the three loaded values.

  The grid has 22 points and 22 · 384 = 8448 exceeds the 8192 token rows, so the last block of `x` and of the
  result overhangs its array by 256 rows. The fetch of such a block fills only the leading rows of the staging
  buffer; the trailing rows hold words nothing names, and the body computes on them too. Nothing the body does
  can fault on any contents, so the frame needs nothing about those rows: the result's buffer is handed back at
  contents this module does not name, and the three inputs' buffers are handed back as they were found.
-/
import proofs.«138617_g22857815949987_cont_8to1_1636_20_alg».proof.Proof.Gen.Kernel.Frame
import proofs.«138617_g22857815949987_cont_8to1_1636_20_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its staging buffer -/

abbrev rX : Rect S384x4096 := Rect.unit (s := S384x4096) ![0, 0] S384x4096.size inb_S384x4096_S384x4096_0_0
abbrev rW : Rect S64x4096 := Rect.unit (s := S64x4096) ![0, 0] S64x4096.size inb_S64x4096_S64x4096_0_0
abbrev rB : Rect S1x64 := Rect.unit (s := S1x64) ![0, 0] S1x64.size inb_S1x64_S1x64_0_0
abbrev rO : Rect S384x64 := Rect.unit (s := S384x64) ![0, 0] S384x64.size inb_S384x64_S384x64_0_0

/-- What the result's staging buffer holds after the body, from what the three input buffers hold: the one
    store's payload — the row-normalised exponentials of the logits — laid over the buffer. -/
def outBlock (x0 : Vec F S384x4096 .f32) (x1 : Vec F S64x4096 .f32) (x2 : Vec F S1x64 .f32) : Vec F S384x64 .f32 :=
  View.canon [⟨rO, k0_pay1 (View.ld x0 rX) (View.ld x1 rW) (View.ld x2 rB)⟩]

/-- The one store covers the result's staging buffer. -/
theorem store_covers (p0 : Vec F S384x64 .f32) (y : S384x64.Idx) :
    ∃ pc ∈ ([⟨rO, p0⟩] : List (View.Piece (Elt F) S384x64 .f32)), y ∈ pc.1.set :=
  View.cover_of_tiled [⟨rO, p0⟩] S384x64.size (by rfl) y

/-! ## The body's triple -/

set_option maxHeartbeats 1000000 in
/-- The body on whole staging memrefs — the inputs' at contents `x0`, `x1`, `x2`, the result's at anything — runs to
    the continuation with the inputs' buffers as they were and the result's at `outBlock x0 x1 x2`. -/
theorem sound_kernel (c : Dev nD) (E : Set ℕ) (i : grid0.Coords)
    (arg1 : Memref sig .tc .vmem S384x4096 .f32) (harg1 : arg1.IsWhole) (arg2 : Memref sig .tc .vmem S64x4096 .f32) (harg2 : arg2.IsWhole)
    (arg3 : Memref sig .tc .vmem S1x64 .f32) (harg3 : arg3.IsWhole) (arg4 : Memref sig .tc .vmem S384x64 .f32) (harg4 : arg4.IsWhole)
    (x0 : Vec F S384x4096 .f32) (x1 : Vec F S64x4096 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlock x0 x1 x2)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The proof data -/

/-- The staged block of `x` at point `t` as the body is taken to find it: the rows of the array the fetch
    lands, and the zero word on the rows past the array's end (only the last point has any). -/
def xStaged (c : Dev nD) (t : Fin cfg0.N) : Vec F S384x4096 .f32 :=
  win0_0.fill (grid0.coords t) (fun _ => Scalar.ofBits .f32 0#32) (iblk m c 0 t)

/-- The proof data of the one pipeline on core `c`: the arrays as the region finds them; after the body at
    point `t` the three inputs' buffers at their blocks (`x`'s filled out past the array's end) and the result's at
    the body's function of them; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xStaged m c t
    | ⟨1, _⟩ => iblk m c 1 t
    | ⟨2, _⟩ => iblk m c 2 t
    | ⟨3, _⟩ => outBlock (xStaged m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xStaged m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (xStaged m c t) (iblk m c 1 t) (iblk m c 2 t) := by dsimp only [dats]

/-- `x`'s window is fetched at every point: its buffer holds the block's rows inside the array, and `d` past
    the array's end. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
/-- The weight matrix and the bias row are fetched once and stay: their buffers hold their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The frame: the result's contents left unnamed -/

/-- The windows whose contents after the body the frame does not name: the result's. -/
def unnamedOut : Fin 4 → Bool := fun w => w.val == 3

/-- What the body is called with at point `t`, the windows one by one: the result's buffer at anything, -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns: `x`'s buffer stated on the rows inside the array only, the result's at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any point, the result's buffer left unnamed: the inputs' buffers hold their blocks (`x`'s with
    anything past the array's end) and are handed back so. -/
theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after0_0]; unfold xStaged
    rw [win0_0.cut_fill]
    iexact H0
  isplitl [H1]; · rw [after0_1]; iexact H1
  isplitl [H2]; · rw [after0_2]; iexact H2
  iexists _; iexact H3

/-- The body obligation at every point with the result's buffer left unnamed. -/
theorem frame_obligation (c : Dev nD) :
    BodyObligationLoose (dats (F := F) m 0 c) (defs₀ (F := F)) Variants.none () Set.univ unnamedOut := fun t => by
  rw [bigSep_W0, bigSep_W0]
  exact frame_body m c t

set_option backward.isDefEq.respectTransparency.types false in
/-- From any memory with zero counters every weakly fair execution of @main terminates, faulting nowhere, with every
    input array of the pipeline as the region found it and every other unscoped buffer likewise. -/
theorem frame_run : θ_run defs (onTc (τ := τ) (main (F := F))) (s₀ m ρ)
    (Pipeline.RDat.FramePost (cfgs 0) (fun c => (dats m 0 c).toRForget unnamedOut) (V m)) :=
  Pipeline.RDat.θ_run_frame cfgs (0 : Fin 1) launch0 defs₀ Variants.none (fun c => (dats m 0 c).toRForget unnamedOut) m ρ main
    (hbody := fun c => (frame_obligation m c).toRForget)
    (hshare := fun c => ((dats m 0 c).toRForget unnamedOut).share_full fun _ => rfl)
    (howed := fun _ _ => rfl) (V := V m) (hmain := hmain m Variants.none) (hA := A_eq m) (hΦ := fun _ _ => rfl)

/-- The frame claim's statement at any float instance: the program runs to the end and its three argument arrays end
    as they began — `x` and `W` are inputs of the pipeline, never written; `b` is read only by the reshape before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(congrFun (((dats m 0 c).toRForget unnamedOut).ArrAt_in 0 rfl cfg0.N) _ ▸ (h c).1 0 :
        r.2.mem _ = ((dats m 0 c).toRForget unnamedOut).A 0).trans ((A_eq m c 0).trans (V_main_arg0 m c)),
      (congrFun (((dats m 0 c).toRForget unnamedOut).ArrAt_in 1 rfl cfg0.N) _ ▸ (h c).1 1 :
        r.2.mem _ = ((dats m 0 c).toRForget unnamedOut).A 1).trans ((A_eq m c 1).trans (V_main_arg1 m c)),
      ((h c).2 main_arg2 (Pipeline.mem_restRefs_of main_arg2 (by decide) (by decide))).trans (V_main_arg2 m c)⟩)
    (frame_run m ρ)

end Cert.Kernel.Body

end
-- ==== Proof.KernelIdealBody.lean ====
/-
  The router kernel's body, once for any float instance: what one grid point does to its four staging buffers,
  and from it that the whole program runs to the end, faults nowhere and leaves its three argument arrays as
  they were.

  One grid point handles 384 token rows. Its body loads the staged block of `x` (384 rows of 4096), the whole
  weight matrix (64 rows of 4096) and the bias row (1 by 64), forms the 384 by 64 logits `x · Wᵀ + b`,
  exponentiates them, divides each row by its own sum, and stores the 384 by 64 result over the whole output
  staging buffer. The body's arithmetic is the single pure term `k0_pay1` of the three loaded values.

  The grid has 22 points and 22 · 384 = 8448 exceeds the 8192 token rows, so the last block of `x` and of the
  result overhangs its array by 256 rows. The fetch of such a block fills only the leading rows of the staging
  buffer; the trailing rows hold words nothing names, and the body computes on them too. Nothing the body does
  can fault on any contents, so the frame needs nothing about those rows: the result's buffer is handed back at
  contents this module does not name, and the three inputs' buffers are handed back as they were found.
-/
import proofs.«138617_g22857815949987_cont_8to1_1636_20_alg».proof.Proof.Gen.KernelIdeal.Frame
import proofs.«138617_g22857815949987_cont_8to1_1636_20_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four accesses: each the whole of its staging buffer -/

abbrev rX : Rect S384x4096 := Rect.unit (s := S384x4096) ![0, 0] S384x4096.size inb_S384x4096_S384x4096_0_0
abbrev rW : Rect S64x4096 := Rect.unit (s := S64x4096) ![0, 0] S64x4096.size inb_S64x4096_S64x4096_0_0
abbrev rB : Rect S1x64 := Rect.unit (s := S1x64) ![0, 0] S1x64.size inb_S1x64_S1x64_0_0
abbrev rO : Rect S384x64 := Rect.unit (s := S384x64) ![0, 0] S384x64.size inb_S384x64_S384x64_0_0

/-- What the result's staging buffer holds after the body, from what the three input buffers hold: the one
    store's payload — the row-normalised exponentials of the logits — laid over the buffer. -/
def outBlock (x0 : Vec F S384x4096 .f32) (x1 : Vec F S64x4096 .f32) (x2 : Vec F S1x64 .f32) : Vec F S384x64 .f32 :=
  View.canon [⟨rO, k0_pay1 (View.ld x0 rX) (View.ld x1 rW) (View.ld x2 rB)⟩]

/-- The one store covers the result's staging buffer. -/
theorem store_covers (p0 : Vec F S384x64 .f32) (y : S384x64.Idx) :
    ∃ pc ∈ ([⟨rO, p0⟩] : List (View.Piece (Elt F) S384x64 .f32)), y ∈ pc.1.set :=
  View.cover_of_tiled [⟨rO, p0⟩] S384x64.size (by rfl) y

/-! ## The body's triple -/

set_option maxHeartbeats 1000000 in
/-- The body on whole staging memrefs — the inputs' at contents `x0`, `x1`, `x2`, the result's at anything — runs to
    the continuation with the inputs' buffers as they were and the result's at `outBlock x0 x1 x2`. -/
theorem sound_kernel (c : Dev nD) (E : Set ℕ) (i : grid0.Coords)
    (arg1 : Memref sig .tc .vmem S384x4096 .f32) (harg1 : arg1.IsWhole) (arg2 : Memref sig .tc .vmem S64x4096 .f32) (harg2 : arg2.IsWhole)
    (arg3 : Memref sig .tc .vmem S1x64 .f32) (harg3 : arg3.IsWhole) (arg4 : Memref sig .tc .vmem S384x64 .f32) (harg4 : arg4.IsWhole)
    (x0 : Vec F S384x4096 .f32) (x1 : Vec F S64x4096 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (outBlock x0 x1 x2)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The proof data -/

/-- The staged block of `x` at point `t` as the body is taken to find it: the rows of the array the fetch
    lands, and the zero word on the rows past the array's end (only the last point has any). -/
def xStaged (c : Dev nD) (t : Fin cfg0.N) : Vec F S384x4096 .f32 :=
  win0_0.fill (grid0.coords t) (fun _ => Scalar.ofBits .f32 0#32) (iblk m c 0 t)

/-- The proof data of the one pipeline on core `c`: the arrays as the region finds them; after the body at
    point `t` the three inputs' buffers at their blocks (`x`'s filled out past the array's end) and the result's at
    the body's function of them; the invariant the class's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xStaged m c t
    | ⟨1, _⟩ => iblk m c 1 t
    | ⟨2, _⟩ => iblk m c 2 t
    | ⟨3, _⟩ => outBlock (xStaged m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xStaged m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (xStaged m c t) (iblk m c 1 t) (iblk m c 2 t) := by dsimp only [dats]

/-- `x`'s window is fetched at every point: its buffer holds the block's rows inside the array, and `d` past
    the array's end. -/
theorem before0_0 (c : Dev nD) (t : Fin cfg0.N) (d) :
    (dats m 0 c).before 0 t d = win0_0.fill (grid0.coords t) d (iblk m c 0 t) := by
  rw [Dat.before_fetched _ 0 t (fetch0_0 t)]
  unfold Dat.fetched Dat.blockOf iblk; rw [A_eq]
/-- The weight matrix and the bias row are fetched once and stay: their buffers hold their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The frame: the result's contents left unnamed -/

/-- The windows whose contents after the body the frame does not name: the result's. -/
def unnamedOut : Fin 4 → Bool := fun w => w.val == 3

/-- What the body is called with at point `t`, the windows one by one: the result's buffer at anything, -/
def framePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns: `x`'s buffer stated on the rows inside the array only, the result's at anything. -/
def framePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any point, the result's buffer left unnamed: the inputs' buffers hold their blocks (`x`'s with
    anything past the array's end) and are handed back so. -/
theorem frame_body (c : Dev nD) (t : Fin cfg0.N) :
    framePre m c t ⊢ wp frame (wpE (defs₀ (F := F)) Variants.none c none) Set.univ (bodyAt0 t) (fun _ => framePost m c t) := by
  unfold framePre framePost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after0_0]; unfold xStaged
    rw [win0_0.cut_fill]
    iexact H0
  isplitl [H1]; · rw [after0_1]; iexact H1
  isplitl [H2]; · rw [after0_2]; iexact H2
  iexists _; iexact H3

/-- The body obligation at every point with the result's buffer left unnamed. -/
theorem frame_obligation (c : Dev nD) :
    BodyObligationLoose (dats (F := F) m 0 c) (defs₀ (F := F)) Variants.none () Set.univ unnamedOut := fun t => by
  rw [bigSep_W0, bigSep_W0]
  exact frame_body m c t

set_option backward.isDefEq.respectTransparency.types false in
/-- From any memory with zero counters every weakly fair execution of @main terminates, faulting nowhere, with every
    input array of the pipeline as the region found it and every other unscoped buffer likewise. -/
theorem frame_run : θ_run defs (onTc (τ := τ) (main (F := F))) (s₀ m ρ)
    (Pipeline.RDat.FramePost (cfgs 0) (fun c => (dats m 0 c).toRForget unnamedOut) (V m)) :=
  Pipeline.RDat.θ_run_frame cfgs (0 : Fin 1) launch0 defs₀ Variants.none (fun c => (dats m 0 c).toRForget unnamedOut) m ρ main
    (hbody := fun c => (frame_obligation m c).toRForget)
    (hshare := fun c => ((dats m 0 c).toRForget unnamedOut).share_full fun _ => rfl)
    (howed := fun _ _ => rfl) (V := V m) (hmain := hmain m Variants.none) (hA := A_eq m) (hΦ := fun _ _ => rfl)

/-- The frame claim's statement at any float instance: the program runs to the end and its three argument arrays end
    as they began — `x` and `W` are inputs of the pipeline, never written; `b` is read only by the reshape before it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(congrFun (((dats m 0 c).toRForget unnamedOut).ArrAt_in 0 rfl cfg0.N) _ ▸ (h c).1 0 :
        r.2.mem _ = ((dats m 0 c).toRForget unnamedOut).A 0).trans ((A_eq m c 0).trans (V_main_arg0 m c)),
      (congrFun (((dats m 0 c).toRForget unnamedOut).ArrAt_in 1 rfl cfg0.N) _ ▸ (h c).1 1 :
        r.2.mem _ = ((dats m 0 c).toRForget unnamedOut).A 1).trans ((A_eq m c 1).trans (V_main_arg1 m c)),
      ((h c).2 main_arg2 (Pipeline.mem_restRefs_of main_arg2 (by decide) (by decide))).trans (V_main_arg2 m c)⟩)
    (frame_run m ρ)

end Cert.KernelIdeal.Body

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.KernelIdealPayload.lean ====
/-
  What the router kernel's body computes, read at an entry, at exact arithmetic.

  The body's one stored value is a 384 by 64 block. At row `p` and expert `q` it is

      exp l(p, q) / Σⱼ exp l(p, j),      l(p, e) = Σₖ x(p, k) · W(e, k) + b(0, e),

  with `x` the staged 384 by 4096 block of token rows, `W` the 64 by 4096 weight matrix and `b` the 1 by 64 bias
  row: the two narrowing casts are the identity on exact values, the matrix product into a zero accumulator is the
  plain sum of products, the bias row is repeated down the rows, and the divisor is the row's lane sum kept as a
  unit axis and repeated along the row. The entry depends on row `p` of `x` only: that is why rows past the end
  of the token array never reach a row inside it.
-/
import proofs.«138617_g22857815949987_cont_8to1_1636_20_alg».proof.Proof.Gen.KernelIdeal.Skeleton
import proofs.«138617_g22857815949987_cont_8to1_1636_20_alg».proof.Proof.LibRowOps
import Idealize.ShloMosaic.Lib.ValueLayout

noncomputable section

namespace Cert.KernelIdeal.Payload

open Cert.KernelIdeal Cert.KernelIdeal.Gen
open Idealize.ShloMosaic Idealize.ShloMosaic.TcCoe Idealize.SL.Sem Idealize.ShloMosaic.ValueIdx
open Cert.Lib.RowOps

/-- The body's matrix product: 384 by 4096 against 64 by 4096, the trailing axes contracted. -/
abbrev DD : DotDims S384x4096 S64x4096 S384x64 := dot_S384x4096_S64x4096_S384x64_1_1_0_0_n_n

theorem DD_lhs0 (i : S384x64.Idx) (c : DD.contr.Idx) : (DD.lhsIdx i c 0).val = (i 0).val := by
  unfold DotDims.lhsIdx
  rw [dif_neg (show ¬(0 : Fin S384x4096.rank) ∈ DD.lhsBatch by decide), dif_pos (show (0 : Fin S384x4096.rank) ∈ DD.lhsNonContracting by decide)]
  rfl
theorem DD_lhs1 (i : S384x64.Idx) (c : DD.contr.Idx) : (DD.lhsIdx i c 1).val = (c ⟨0, by decide⟩).val :=
  DD.lhsIdx_val_of_single rfl i c
theorem DD_rhs0 (i : S384x64.Idx) (c : DD.contr.Idx) : (DD.rhsIdx i c 0).val = (i 1).val := by
  unfold DotDims.rhsIdx
  rw [dif_neg (show ¬(0 : Fin S64x4096.rank) ∈ DD.rhsBatch by decide), dif_pos (show (0 : Fin S64x4096.rank) ∈ DD.rhsNonContracting by decide)]
  rfl
theorem DD_rhs1 (i : S384x64.Idx) (c : DD.contr.Idx) : (DD.rhsIdx i c 1).val = (c ⟨0, by decide⟩).val :=
  DD.rhsIdx_val_of_single rfl i c

/-- The logit the body forms at row `p` of the staged block for expert `e`. -/
def blockLogit (v0 : FVec Ideal S384x4096 .f32) (v2 : FVec Ideal S64x4096 .f32) (v5 : FVec Ideal S1x64 .f32)
    (p : Fin 384) (e : Fin 64) : EReal :=
  (∑ k : Fin 4096, v0 (ix2 p k) * v2 (ix2 e k)) + v5 (ix2 (0 : Fin 1) e)

/-- The exponentiated logits, as the body spells them. -/
def expLogits (v0 : FVec Ideal S384x4096 .f32) (v2 : FVec Ideal S64x4096 .f32) (v5 : FVec Ideal S1x64 .f32) : FVec Ideal S384x64 .f32 :=
  exp (addf (matmul DD none (truncf .bf16 v0 bitsLt_bf16_f32) (truncf .bf16 v2 bitsLt_bf16_f32) (constant (F := Ideal) S384x64 .f32 0x00000000#32))
    (broadcastTo S384x64 (shapeCast S1x64 v5 shapeCasts_S1x64_S1x64) broadcasts_S1x64_S384x64))

/-- The body's stored value is the exponentiated logits over their row sums (kept as a unit axis, repeated along the row). -/
theorem k0_pay1_eq (v0 : FVec Ideal S384x4096 .f32) (v2 : FVec Ideal S64x4096 .f32) (v5 : FVec Ideal S1x64 .f32) :
    k0_pay1 (F := Ideal) v0 v2 v5
      = divf (expLogits v0 v2 v5) (broadcastTo S384x64 (shapeCast S384x1
          (multiReduction (F := Ideal) .add [1] S384 (expLogits v0 v2 v5) 0x00000000#32 reduces_S384x64_S384 (.inl rfl) rfl)
          shapeCasts_S384_S384x1) broadcasts_S384x1_S384x64) := rfl

/-- An exponentiated logit at an entry. -/
theorem expLogits_apply (v0 : FVec Ideal S384x4096 .f32) (v2 : FVec Ideal S64x4096 .f32) (v5 : FVec Ideal S1x64 .f32)
    (p : Fin 384) (e : Fin 64) : expLogits v0 v2 v5 (ix2 p e) = Ideal.exp (blockLogit v0 v2 v5 p e) := by
  unfold expLogits blockLogit
  show Ideal.exp (matmul DD none (truncf .bf16 v0 bitsLt_bf16_f32) (truncf .bf16 v2 bitsLt_bf16_f32) (constant (F := Ideal) S384x64 .f32 0x00000000#32) (ix2 p e)
      + broadcastTo S384x64 (shapeCast S1x64 v5 shapeCasts_S1x64_S1x64) broadcasts_S1x64_S384x64 (ix2 p e)) = _
  rw [matmul_nt_zero_ix2 DD rfl rfl DD_lhs0 DD_lhs1 DD_rhs0 DD_rhs1, broadcastTo_1b_ab_apply, shapeCast_self]
  rfl

/-- THE BODY AT AN ENTRY: the softmax of row `p`'s logits, at expert `q`. -/
theorem k0_pay1_apply (v0 : FVec Ideal S384x4096 .f32) (v2 : FVec Ideal S64x4096 .f32) (v5 : FVec Ideal S1x64 .f32)
    (p : Fin 384) (q : Fin 64) :
    k0_pay1 (F := Ideal) v0 v2 v5 (ix2 p q)
      = Ideal.div (Ideal.exp (blockLogit v0 v2 v5 p q)) (∑ j : Fin 64, Ideal.exp (blockLogit v0 v2 v5 p j)) := by
  rw [k0_pay1_eq]
  show Ideal.div (expLogits v0 v2 v5 (ix2 p q)) _ = _
  rw [rowSum_keepdims_apply (expLogits v0 v2 v5) 0x00000000#32 reduces_S384x64_S384 (.inl rfl) rfl shapeCasts_S384_S384x1
    broadcasts_S384x1_S384x64 p q, expLogits_apply]
  exact congrArg _ (Finset.sum_congr rfl fun j _ => expLogits_apply v0 v2 v5 p j)

/-- The entry reads row `p` of the staged block only: two staged blocks that agree on row `p` give the same entry. -/
theorem k0_pay1_row_congr (v0 v0' : FVec Ideal S384x4096 .f32) (v2 : FVec Ideal S64x4096 .f32) (v5 : FVec Ideal S1x64 .f32)
    (p : Fin 384) (h : ∀ k : Fin 4096, v0 (ix2 p k) = v0' (ix2 p k)) (q : Fin 64) :
    k0_pay1 (F := Ideal) v0 v2 v5 (ix2 p q) = k0_pay1 (F := Ideal) v0' v2 v5 (ix2 p q) := by
  have hl : ∀ e, blockLogit v0 v2 v5 p e = blockLogit v0' v2 v5 p e := fun e => by
    unfold blockLogit; exact congrArg (· + _) (Finset.sum_congr rfl fun k _ => by rw [h k])
  rw [k0_pay1_apply, k0_pay1_apply, hl q]
  exact congrArg _ (Finset.sum_congr rfl fun j _ => by rw [hl j])

end Cert.KernelIdeal.Payload

end
-- ==== Proof.RouterSpec.lean ====
/-
  The mathematics of the expert router, with no program in sight.

  For a token row `r` and an expert `e` the logit is `l(r, e) = Σₖ x(r, k) · W(e, k) + b(e)` (4096 hidden
  coordinates). The routing probabilities are the row-wise softmax of the logits. Two spellings of that softmax
  meet here:

    * the direct one, `exp l(r, e) / Σⱼ exp l(r, j)`;
    * the shifted one, `exp (l(r, e) − μ) / Σⱼ exp (l(r, j) − μ)`, with `μ` any finite number (a row maximum, say).

  On the extended reals they agree whenever the row's logits and `μ` are finite: then every exponential is a
  positive real, the sums are positive reals, the division is the real one, and the common factor `exp (−μ)`
  cancels. Finiteness is needed — at an infinite logit `l − μ` and the quotient take junk values — and it is
  inherited from finite `x`, `W` and `b`: a finite sum of products of reals plus a real is a real.
-/
import Idealize.ShloMosaic.Lib.ValueIdx
import Idealize.ShloMosaic.PureOps.Ideal.Laws

noncomputable section

namespace Cert.Router

open Idealize.ShloMosaic Idealize.ShloMosaic.ValueIdx

/-- An extended real that is a real number. -/
def IsReal (v : EReal) : Prop := ∃ r : ℝ, v = (r : EReal)

/-- A finite sum of coerced reals is the coerced sum. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A finite sum of reals is a real. -/
theorem isReal_sum {ι : Type} (s : Finset ι) (f : ι → EReal) (h : ∀ i ∈ s, IsReal (f i)) : IsReal (∑ i ∈ s, f i) := by
  choose! g hg using h
  exact ⟨∑ i ∈ s, g i, by rw [coe_sum]; exact Finset.sum_congr rfl hg⟩

/-- The logit of token row `r` for expert `e`: the inner product of the row with the expert's weights, plus its bias. -/
def logit (x : (⟨2, ![8192, 4096]⟩ : Shape).Idx → EReal) (W : (⟨2, ![64, 4096]⟩ : Shape).Idx → EReal)
    (b : (⟨1, ![64]⟩ : Shape).Idx → EReal) (r : Fin 8192) (e : Fin 64) : EReal :=
  (∑ k : Fin 4096, x (ix2 r k) * W (ix2 e k)) + b (ix1 e)

/-- The routing probabilities, the direct spelling: each row's exponentiated logits over their sum. -/
def probs (x : (⟨2, ![8192, 4096]⟩ : Shape).Idx → EReal) (W : (⟨2, ![64, 4096]⟩ : Shape).Idx → EReal)
    (b : (⟨1, ![64]⟩ : Shape).Idx → EReal) : (⟨2, ![8192, 64]⟩ : Shape).Idx → EReal := fun i =>
  Ideal.div (Ideal.exp (logit x W b (i 0) (i 1))) (∑ j : Fin 64, Ideal.exp (logit x W b (i 0) j))

/-- Finite inputs give finite logits. -/
theorem isReal_logit (x : (⟨2, ![8192, 4096]⟩ : Shape).Idx → EReal) (W : (⟨2, ![64, 4096]⟩ : Shape).Idx → EReal)
    (b : (⟨1, ![64]⟩ : Shape).Idx → EReal) (hx : ∀ i, IsReal (x i)) (hW : ∀ i, IsReal (W i)) (hb : ∀ i, IsReal (b i))
    (r : Fin 8192) (e : Fin 64) : IsReal (logit x W b r e) := by
  obtain ⟨s, hs⟩ := isReal_sum Finset.univ (fun k : Fin 4096 => x (ix2 r k) * W (ix2 e k)) (fun k _ => by
    obtain ⟨a, ha⟩ := hx (ix2 r k); obtain ⟨c, hc⟩ := hW (ix2 e k)
    exact ⟨a * c, by show x (ix2 r k) * W (ix2 e k) = _; rw [ha, hc, EReal.coe_mul]⟩)
  obtain ⟨β, hβ⟩ := hb (ix1 e)
  exact ⟨s + β, by unfold logit; rw [hs, hβ, EReal.coe_add]⟩

/-- The maximum of sixty-four reals, folded from −∞, is a real. -/
theorem isReal_fold_max (f : Fin 64 → EReal) (hf : ∀ k, IsReal (f k)) :
    IsReal ((Finset.univ : Finset (Fin 64)).fold max (⊥ : EReal) f) := by
  have key : ∀ s : Finset (Fin 64), s.fold max (⊥ : EReal) f = ⊥ ∨ IsReal (s.fold max (⊥ : EReal) f) := by
    intro s
    refine Finset.induction_on s (Or.inl rfl) fun a s ha ih => ?_
    rw [Finset.fold_insert ha]
    obtain ⟨ra, hra⟩ := hf a
    rcases ih with h | ⟨r, hr⟩
    · rw [h, hra]; exact Or.inr ⟨ra, max_eq_left bot_le⟩
    · rw [hr, hra]
      rcases le_total ra r with h | h
      · exact Or.inr ⟨r, max_eq_right (EReal.coe_le_coe_iff.mpr h)⟩
      · exact Or.inr ⟨ra, max_eq_left (EReal.coe_le_coe_iff.mpr h)⟩
  have hne : (Finset.univ : Finset (Fin 64)).fold max (⊥ : EReal) f ≠ ⊥ := by
    rw [show (Finset.univ : Finset (Fin 64)) = insert (0 : Fin 64) (Finset.univ.erase 0) from
      (Finset.insert_erase (Finset.mem_univ _)).symm, Finset.fold_insert (Finset.notMem_erase _ _)]
    obtain ⟨r0, h0⟩ := hf 0
    rw [h0]
    exact ne_of_gt (lt_of_lt_of_le (EReal.bot_lt_coe r0) (le_max_left _ _))
  exact (key Finset.univ).resolve_left hne

/-- THE LAW: on finite logits the shifted softmax is the direct one. The shifted spelling is written as the
    host writes it: the sum started from zero. -/
theorem softmax_shift (l : Fin 64 → ℝ) (μ : ℝ) (e : Fin 64) :
    Ideal.div (Ideal.exp ((l e : EReal) - (μ : EReal))) (0 + ∑ j : Fin 64, Ideal.exp ((l j : EReal) - (μ : EReal)))
      = Ideal.div (Ideal.exp (l e : EReal)) (∑ j : Fin 64, Ideal.exp (l j : EReal)) := by
  have hpos : ∀ g : Fin 64 → ℝ, 0 < ∑ j : Fin 64, Real.exp (g j) := fun g =>
    Finset.sum_pos (fun j _ => Real.exp_pos _) ⟨0, Finset.mem_univ _⟩
  have e1 : ∀ j, Ideal.exp ((l j : EReal) - (μ : EReal)) = ((Real.exp (l j - μ) : ℝ) : EReal) := fun j => by
    rw [← EReal.coe_sub]; rfl
  have e2 : ∀ j, Ideal.exp (l j : EReal) = ((Real.exp (l j) : ℝ) : EReal) := fun j => rfl
  simp only [e1, e2, zero_add]
  rw [← coe_sum, ← coe_sum, Ideal.div_coe (hpos _).ne', Ideal.div_coe (hpos _).ne', ← EReal.coe_mul, ← EReal.coe_mul]
  congr 1
  have hμ : Real.exp μ ≠ 0 := (Real.exp_pos μ).ne'
  have hs : ∑ j : Fin 64, Real.exp (l j - μ) = (∑ j : Fin 64, Real.exp (l j)) / Real.exp μ := by
    rw [Finset.sum_div]; exact Finset.sum_congr rfl fun j _ => Real.exp_sub _ _
  have hS := (hpos l).ne'
  rw [hs, Real.exp_sub]
  field_simp

/-- The same law over extended reals known to be finite. -/
theorem softmax_shift_of_isReal (l : Fin 64 → EReal) (hl : ∀ j, IsReal (l j)) (μ : EReal) (hμ : IsReal μ) (e : Fin 64) :
    Ideal.div (Ideal.exp (l e - μ)) (0 + ∑ j : Fin 64, Ideal.exp (l j - μ))
      = Ideal.div (Ideal.exp (l e)) (∑ j : Fin 64, Ideal.exp (l j)) := by
  choose g hg using hl
  obtain ⟨m, rfl⟩ := hμ
  have : l = fun j => (g j : EReal) := funext hg
  subst this
  exact softmax_shift g m e

end Cert.Router

end
-- ==== Proof.KernelIdealValue.lean ====
/-
  The router kernel at exact arithmetic: what its result array holds after the run.

  Three steps.
  (1) The body obligation with the result's buffer NAMED on the rows the write-back writes. The body computes its
      384 by 64 block from the whole staging buffer of `x`, whose rows past the end of the token array hold
      anything; but entry (p, q) of the block reads row p of `x`'s buffer only, so on the rows inside the array the
      block is the same whatever lies past the end.
  (2) What grid point `t` writes back is block `t` of ONE function of the three argument arrays: the row-wise
      softmax of the logits `x · Wᵀ + b` (`Cert.Router.probs`). Row `p` of point `t`'s block is token row
      `384 t + p`; the weight matrix and the bias row are the same at every point, the bias row being the argument
      `b` recast from [64] to [1, 64] before the pipeline.
  (3) The 22 blocks of 384 rows, the last cut to 128, cover the 8192 token rows: row `r` lies in block `r / 384`.
      So the result array ends holding `probs x W b`.
-/
import proofs.«138617_g22857815949987_cont_8to1_1636_20_alg».proof.Proof.KernelIdealBody
import proofs.«138617_g22857815949987_cont_8to1_1636_20_alg».proof.Proof.KernelIdealPayload
import proofs.«138617_g22857815949987_cont_8to1_1636_20_alg».proof.Proof.RouterSpec
import Idealize.ShloMosaic.Lib.Pipeline.Value
import Idealize.ShloMosaic.Lib.StableHlo.Run
import Idealize.ShloMosaic.Lib.ValueLayout

set_option maxRecDepth 16384

noncomputable section

namespace Cert.KernelIdeal.RouterValue

open Cert.KernelIdeal Cert.KernelIdeal.Gen Cert.KernelIdeal.Body Cert.KernelIdeal.Payload Cert.Router
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem zeros : (![0, 0] : Fin 2 → Nat) = fun _ => 0 := funext fun a => by fin_cases a <;> rfl

/-- The one whole-buffer store over whole-buffer loads: the result's buffer holds the body's value of the three buffers. -/
theorem outBlock_eq (x0 : Vec Ideal S384x4096 .f32) (x1 : Vec Ideal S64x4096 .f32) (x2 : Vec Ideal S1x64 .f32) :
    outBlock (F := Ideal) x0 x1 x2 = k0_pay1 (F := Ideal) x0 x1 x2 := by
  unfold outBlock
  rw [View.canon_unit_zero zeros]
  simp only [View.ld_unit_zero (S := S384x4096) zeros, View.ld_unit_zero (S := S64x4096) zeros, View.ld_unit_zero (S := S1x64) zeros]

/-- The printed index maps and cuts, decided over the 22 grid points: `x`'s and the result's blocks sit at block row
    `t`, the weights' and the bias's at the origin; `x`'s and the result's blocks are cut to the same number of rows,
    `min 384 (8192 − 384 t)`, and not at all along the row. -/
theorem grid_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_0.xsize (grid0.coords t) (0 : Fin 2) = win0_3.xsize (grid0.coords t) (0 : Fin 2)
    ∧ win0_0.xsize (grid0.coords t) (1 : Fin 2) = 4096
    ∧ win0_3.xsize (grid0.coords t) (1 : Fin 2) = 64
    ∧ win0_3.xsize (grid0.coords t) (0 : Fin 2) = min 384 (8192 - t.val * 384) :=
  (by decide +kernel : ∀ t : Fin grid0.N, _)

/-! ## (1) The rows inside the array do not see what lies past its end -/

/-- A row of `x`'s staged block that the fetch landed holds the array's row, whatever fills the rest. -/
theorem fill_row_indep (c : Dev nD) (t : Fin cfg0.N) (d d' : S384x4096.Idx → Elt Ideal .f32) (p : Fin 384)
    (hp : p.val < win0_3.xsize (grid0.coords t) (0 : Fin 2)) (k : Fin 4096) :
    win0_0.fill (grid0.coords t) d (iblk m c 0 t) (ix2 p k) = win0_0.fill (grid0.coords t) d' (iblk m c 0 t) (ix2 p k) := by
  obtain ⟨_, _, _, _, _, _, _, _, hx0, hx1, _, _⟩ := grid_facts t
  have hm : win0_0.moved (grid0.coords t) (ix2 p k : S384x4096.Idx) = true := (win0_0.moved_iff _ _).mpr fun a => by
    match a with
    | ⟨0, _⟩ => show p.val < win0_0.xsize (grid0.coords t) (0 : Fin 2); rw [hx0]; exact hp
    | ⟨1, _⟩ => show k.val < win0_0.xsize (grid0.coords t) (1 : Fin 2); rw [hx1]; exact k.isLt
  unfold Window.fill
  rw [dif_pos hm, dif_pos hm]

/-- On the rows the write-back writes, the body's block is the same whatever `x`'s buffer holds past the array's end. -/
theorem cut_outBlock_indep (c : Dev nD) (t : Fin cfg0.N) (d0 : S384x4096.Idx → Elt Ideal .f32) :
    win0_3.cut (grid0.coords t) (outBlock (F := Ideal) (win0_0.fill (grid0.coords t) d0 (iblk m c 0 t)) (iblk m c 1 t) (iblk m c 2 t))
      = win0_3.cut (grid0.coords t) (outBlock (F := Ideal) (xStaged m c t) (iblk m c 1 t) (iblk m c 2 t)) := by
  funext j
  show outBlock (F := Ideal) _ _ _ (win0_3.xinj (grid0.coords t) j) = outBlock (F := Ideal) _ _ _ (win0_3.xinj (grid0.coords t) j)
  rw [outBlock_eq, outBlock_eq]
  obtain ⟨p, q, hpq⟩ : ∃ (p : Fin 384) (q : Fin 64), (win0_3.xinj (grid0.coords t) j : S384x64.Idx) = ix2 p q := ⟨_, _, eq_ix2 _⟩
  have hp : p.val = (j 0).val := (congrArg (fun i : S384x64.Idx => (i 0).val) hpq).symm
  rw [hpq]
  refine k0_pay1_row_congr _ _ _ _ p (fun k => ?_) q
  unfold xStaged
  exact fill_row_indep m c t _ _ p (by rw [hp]; exact (j 0).isLt) k

/-! ## The body obligation, the result's buffer named on the rows written back -/

def valuePre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def valuePost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

theorem value_body (c : Dev nD) (t : Fin cfg0.N) :
    valuePre m c t ⊢ wp frame (wpE (defs₀ (F := Ideal)) Variants.none c none) Set.univ (bodyAt0 t) (fun _ => valuePost m c t) := by
  unfold valuePre valuePost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2]
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [after0_0]; unfold xStaged
    rw [win0_0.cut_fill]
    iexact H0
  isplitl [H1]; · rw [after0_1]; iexact H1
  isplitl [H2]; · rw [after0_2]; iexact H2
  iexists (outBlock (F := Ideal) (win0_0.fill (grid0.coords t) d0 (iblk m c 0 t)) (iblk m c 1 t) (iblk m c 2 t))
  rw [after0_3, ← cut_outBlock_indep m c t d0, win0_3.fill_cut]
  iexact H3

theorem value_obligation (c : Dev nD) :
    BodyObligationLoose (dats (F := Ideal) m 0 c) (defs₀ (F := Ideal)) Variants.none () Set.univ := fun t => by
  rw [bigSep_W0, bigSep_W0]
  exact value_body m c t

set_option backward.isDefEq.respectTransparency.types false in
/-- The run with every array of the pipeline at what the proof data computes. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => value_obligation m c) (hshare := fun c => (dats m 0 c).share_full fun _ => rfl)
    (howed := fun _ _ => rfl) (V := V m) (hmain := hmain m Variants.none) (hA := A_eq m) (hΦ := fun _ _ => rfl)

/-! ## (2) What a point writes back -/

/-- The bias row the pipeline stages is the argument `b` recast to one row. -/
theorem V_bias (c : Dev nD) :
    (V m c main_v0 : S1x64.Idx → Elt Ideal .f32) = shapeCast S1x64 (m ((c : Thread nD τ).loc main_arg2)) shapeCasts_S64_S1x64 := by
  dsimp only [Gen.V, Gen.hostOps0]; after_results; rfl

/-- Row `p` of `x`'s staged block at point `t`, when the fetch landed it, is token row `384 t + p`. -/
theorem xStaged_apply (c : Dev nD) (t : Fin cfg0.N) (p : Fin 384) (hp : p.val < win0_3.xsize (grid0.coords t) (0 : Fin 2))
    (r : Fin 8192) (hr : r.val = t.val * 384 + p.val) (k : Fin 4096) :
    xStaged m c t (ix2 p k) = m ((c : Thread nD τ).loc main_arg0) (ix2 r k) := by
  obtain ⟨e0, e1, _, _, _, _, _, _, hx0, hx1, _, _⟩ := grid_facts t
  have hm : win0_0.moved (grid0.coords t) (ix2 p k : S384x4096.Idx) = true := (win0_0.moved_iff _ _).mpr fun a => by
    match a with
    | ⟨0, _⟩ => show p.val < win0_0.xsize (grid0.coords t) (0 : Fin 2); rw [hx0]; exact hp
    | ⟨1, _⟩ => show k.val < win0_0.xsize (grid0.coords t) (1 : Fin 2); rw [hx1]; exact k.isLt
  unfold xStaged Window.fill
  rw [dif_pos hm, ← V_main_arg0 m c]
  show V m c main_arg0 (((cfg0.win 0).blk t).view.emb _) = V m c main_arg0 (ix2 r k)
  refine congrArg (V m c main_arg0) (funext fun a => Fin.ext ?_)
  match a with
  | ⟨0, _⟩ => show win0_0.index t (0 : Fin 2) * 384 + 1 * p.val = r.val; omega
  | ⟨1, _⟩ => show win0_0.index t (1 : Fin 2) * 4096 + 1 * k.val = k.val; omega

/-- The staged weight matrix is the argument `W`. -/
theorem wblk_apply (c : Dev nD) (t : Fin cfg0.N) (e : Fin 64) (k : Fin 4096) :
    iblk m c 1 t (ix2 e k) = m ((c : Thread nD τ).loc main_arg1) (ix2 e k) := by
  obtain ⟨_, _, e2, e3, _, _, _, _, _, _, _, _⟩ := grid_facts t
  rw [← V_main_arg1 m c]
  show V m c main_arg1 (((cfg0.win 1).blk t).view.emb (ix2 e k)) = V m c main_arg1 (ix2 e k)
  refine congrArg (V m c main_arg1) (funext fun a => Fin.ext ?_)
  match a with
  | ⟨0, _⟩ => show win0_1.index t (0 : Fin 2) * 64 + 1 * e.val = e.val; omega
  | ⟨1, _⟩ => show win0_1.index t (1 : Fin 2) * 4096 + 1 * k.val = k.val; omega

/-- The staged bias row is the argument `b`, entry by entry. -/
theorem bblk_apply (c : Dev nD) (t : Fin cfg0.N) (e : Fin 64) :
    iblk m c 2 t (ix2 (0 : Fin 1) e) = m ((c : Thread nD τ).loc main_arg2) (ix1 e) := by
  obtain ⟨_, _, _, _, e4, e5, _, _, _, _, _, _⟩ := grid_facts t
  have h : iblk m c 2 t (ix2 (0 : Fin 1) e) = V m c main_v0 (ix2 (0 : Fin 1) e) := by
    show V m c main_v0 (((cfg0.win 2).blk t).view.emb (ix2 (0 : Fin 1) e)) = V m c main_v0 (ix2 (0 : Fin 1) e)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 64 + 1 * e.val = e.val; omega
  rw [h, V_bias m c]
  exact shapeCast_a_1a_apply _ _ 0 e

/-- WHAT POINT `t` WRITES BACK is block `t` of the routing probabilities of the three argument arrays. -/
theorem flushed_eq (c : Dev nD) (t : Fin cfg0.N) :
    (dats m 0 c).flushed 3 t = ((cfg0.win 3).blk t).view.read (Elt Ideal)
      (probs (m ((c : Thread nD τ).loc main_arg0)) (m ((c : Thread nD τ).loc main_arg1)) (m ((c : Thread nD τ).loc main_arg2))) := by
  obtain ⟨_, _, _, _, _, _, e6, e7, _, _, hx1, hx0⟩ := grid_facts t
  funext j
  show (dats m 0 c).after 3 t (win0_3.xinj (grid0.coords t) j) = probs _ _ _ (((cfg0.win 3).blk t).view.emb j)
  rw [after0_3, outBlock_eq]
  obtain ⟨p, q, hpq⟩ : ∃ (p : Fin 384) (q : Fin 64), (win0_3.xinj (grid0.coords t) j : S384x64.Idx) = ix2 p q := ⟨_, _, eq_ix2 _⟩
  have hp : p.val = (j 0).val := (congrArg (fun i : S384x64.Idx => (i 0).val) hpq).symm
  have hq : q.val = (j 1).val := (congrArg (fun i : S384x64.Idx => (i 1).val) hpq).symm
  have hj0 : (j 0).val < win0_3.xsize (grid0.coords t) (0 : Fin 2) := (j 0).isLt
  rw [hpq, k0_pay1_apply]
  -- the array index of the block's entry: token row 384 t + p, expert q
  have hi0 : ((((cfg0.win 3).blk t).view.emb j) 0).val = t.val * 384 + p.val := by
    show win0_3.index t (0 : Fin 2) * 384 + 1 * (j 0).val = _; omega
  have hi1 : ((((cfg0.win 3).blk t).view.emb j) 1) = q := Fin.ext (by
    show win0_3.index t (1 : Fin 2) * 64 + 1 * (j 1).val = q.val; omega)
  have hl : ∀ e : Fin 64, blockLogit (xStaged m c t) (iblk m c 1 t) (iblk m c 2 t) p e
      = logit (m ((c : Thread nD τ).loc main_arg0)) (m ((c : Thread nD τ).loc main_arg1)) (m ((c : Thread nD τ).loc main_arg2))
          ((((cfg0.win 3).blk t).view.emb j) 0) e := fun e => by
    unfold blockLogit logit
    rw [bblk_apply m c t e]
    exact congrArg (· + _) (Finset.sum_congr rfl fun k _ => by
      rw [xStaged_apply m c t p (by rw [hp]; exact hj0) _ hi0 k, wblk_apply m c t e k])
  unfold probs
  rw [hi1, hl q]
  exact congrArg _ (Finset.sum_congr rfl fun e _ => by rw [hl e])

/-! ## (3) The blocks cover the array -/

theorem mem_blk (t : Fin cfg0.N) (i : S8192x64.Idx) :
    i ∈ ((cfg0.win 3).blk t).view.set ↔ ∀ a : Fin 2, win0_3.index t a * S384x64.size a ≤ (i a).val
      ∧ (i a).val < win0_3.index t a * S384x64.size a + win0_3.xsize (grid0.coords t) a := by
  show i ∈ ((View.whole main_v1).slice (win0_3.rect t)).set ↔ _
  rw [View.set_slice_whole, Rect.mem_set_unit]
  exact Iff.rfl

/-- Token row `r` lies in block `r / 384`. -/
theorem covered (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  have hN : cfg0.N = 22 := N_0
  let t : Fin cfg0.N := ⟨(i 0).val / 384, by rw [hN]; omega⟩
  obtain ⟨_, _, _, _, _, _, e6, e7, _, _, hx1, hx0⟩ := grid_facts t
  have ht : t.val = (i 0).val / 384 := rfl
  refine ⟨t, flush0_3 t, (mem_blk t i).mpr fun a => ?_⟩
  match a with
  | ⟨0, _⟩ =>
    show win0_3.index t (0 : Fin 2) * 384 ≤ (i 0).val ∧ (i 0).val < win0_3.index t (0 : Fin 2) * 384 + win0_3.xsize (grid0.coords t) (0 : Fin 2)
    rw [e6, hx0, ht]; omega
  | ⟨1, _⟩ =>
    show win0_3.index t (1 : Fin 2) * 64 ≤ (i 1).val ∧ (i 1).val < win0_3.index t (1 : Fin 2) * 64 + win0_3.xsize (grid0.coords t) (1 : Fin 2)
    rw [e7, hx1]; omega

/-- THE RESULT ARRAY after the run: the routing probabilities of the three argument arrays. -/
theorem final (c : Dev nD) : (dats m 0 c).arrAt 3 cfg0.N
    = probs (m ((c : Thread nD τ).loc main_arg0)) (m ((c : Thread nD τ).loc main_arg1)) (m ((c : Thread nD τ).loc main_arg2)) :=
  (dats m 0 c).arrAt_eq_of_cover 3 _ (fun t _ => flushed_eq m c t) covered

/-- THE RUN, READ: every weakly fair execution terminates with the result array at the routing probabilities of the
    arguments, and the arguments as they were. -/
theorem run : θ_run defs (onTc (τ := τ) (main (F := Ideal))) ⟨m, fun _ => 0, ρ⟩ fun r => ∀ c : Dev nD,
      r.2.mem ((c.tc : Thread nD τ).loc main_v1)
        = probs (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.RouterValue

end
-- ==== Proof.ReferenceValue.lean ====
/-
  The reference at exact arithmetic: `jax.nn.softmax(x @ W.T + b)` is the routing probabilities, on finite inputs.

  The reference forms the logits `l = x · Wᵀ + b`, takes each row's maximum `μ` (folded from −∞, then once more
  against −∞), subtracts it, exponentiates, and divides by the row's sum started from zero. Its value at (r, e) is
  `exp (l(r, e) − μ(r)) / (0 + Σⱼ exp (l(r, j) − μ(r)))`. On finite inputs each logit is a real, so the row maximum is
  a real, and the shift law (`Cert.Router.softmax_shift_of_isReal`) turns this into the direct spelling
  `exp l(r, e) / Σⱼ exp l(r, j)`. The value of the maximum is never needed: only that it is finite.
-/
import proofs.«138617_g22857815949987_cont_8to1_1636_20_alg».proof.Proof.Gen.ReferenceIdeal.Read
import proofs.«138617_g22857815949987_cont_8to1_1636_20_alg».proof.Proof.RouterSpec

noncomputable section

namespace Cert.ReferenceIdeal.RouterValue

open Cert.ReferenceIdeal Cert.ReferenceIdeal.Gen Cert.ReferenceIdeal.Read Cert.Router
open Idealize.ShloMosaic Idealize.ShloMosaic.TcCoe Idealize.SL.Sem Idealize.ShloMosaic.ValueIdx

variable (x0 : (⟨S8192x4096, .f32⟩ : BufTy).Contents (Elt Ideal)) (x1 : (⟨S64x4096, .f32⟩ : BufTy).Contents (Elt Ideal))
  (x2 : (⟨S64, .f32⟩ : BufTy).Contents (Elt Ideal))

/-- The reference's logits stage, at an index, is the logit. -/
theorem logits_eq (j : S8192x64.Idx) : val_main_v4 (F := Ideal) x0 x1 x2 j = logit x0 x1 x2 (j 0) (j 1) := by
  rw [val_main_v4_apply, val_main_v1_apply, val_main_v3_apply, val_main_v2_apply]
  unfold logit
  show (∑ k : Fin 4096, x0 (lidx_main_v1 j k) * val_main_v0 (F := Ideal) x1 (ridx_main_v1 j k)) + x2 (idx_main_v2 (idx_main_v3 j)) = _
  have e2 : idx_main_v2 (idx_main_v3 j) = ix1 (j 1) := funext fun a => Fin.ext (by match a with | ⟨0, _⟩ => rfl)
  rw [e2]
  refine congrArg (· + _) (Finset.sum_congr rfl fun k _ => ?_)
  rw [val_main_v0_apply]
  have el : lidx_main_v1 j k = ix2 (j 0) k := funext fun a => Fin.ext (by match a with | ⟨0, _⟩ => rfl | ⟨1, _⟩ => rfl)
  have er : idx_main_v0 (ridx_main_v1 j k) = ix2 (j 1) k := funext fun a => Fin.ext (by match a with | ⟨0, _⟩ => rfl | ⟨1, _⟩ => rfl)
  rw [el, er]
  rfl

theorem negInf : (FloatOps.ofBits (F := Ideal) .f32 0xFF800000#32 : EReal) = ⊥ := by
  show Ideal.ofBits .f32 0xFF800000#32 = ⊥
  simp [Ideal.ofBits, Ideal.ieee]

variable (hx : ∀ i, IsReal (x0 i)) (hW : ∀ i, IsReal (x1 i)) (hb : ∀ i, IsReal (x2 i))
include hx hW hb

/-- On finite inputs a row's maximum, as the reference takes it, is a real number. -/
theorem rowMax_isReal (i : S8192.Idx) : IsReal (val_main_v7 (F := Ideal) x0 x1 x2 i) := by
  have h5 : IsReal (val_main_v5 (F := Ideal) x0 x1 x2 i) := by
    unfold val_main_v5
    rw [Host.reduce_eq_fold_single FloatOps.maximumf _ _ reducesTo_S8192x64_S8192_d1 (by decide : S8192x64.Reduces [1] S8192) h_S_ i]
    rw [val_main_cst_apply, negInf]
    exact isReal_fold_max _ fun k => by
      show IsReal (val_main_v4 (F := Ideal) x0 x1 x2 _)
      rw [logits_eq]; exact isReal_logit _ _ _ hx hW hb _ _
  obtain ⟨μ, hμ⟩ := h5
  rw [val_main_v7_apply, val_main_v6_apply, val_main_cst_0_apply, hμ, negInf]
  exact ⟨μ, max_eq_right bot_le⟩

/-- THE REFERENCE IS THE ROUTING PROBABILITIES, on finite inputs. -/
theorem reference_eq : val_main_v15 (F := Ideal) x0 x1 x2 = probs x0 x1 x2 := by
  funext i
  obtain ⟨r, e, rfl⟩ : ∃ (r : Fin 8192) (e : Fin 64), i = ix2 r e := ⟨i 0, i 1, eq_ix2 i⟩
  obtain ⟨μ, hμ⟩ := rowMax_isReal x0 x1 x2 hx hW hb (ix1 r)
  have h11 : ∀ e' : Fin 64, val_main_v11 (F := Ideal) x0 x1 x2 (ix2 r e') = Ideal.exp (logit x0 x1 x2 r e' - (μ : EReal)) := fun e' => by
    rw [val_main_v11_apply, val_main_v10_apply, val_main_v9_apply, val_main_v8_apply, logits_eq]
    have e8 : idx_main_v8 (idx_main_v9 (ix2 r e')) = ix1 r := funext fun a => Fin.ext (by match a with | ⟨0, _⟩ => rfl)
    rw [e8, hμ]
    rfl
  have h12 : val_main_v12 (F := Ideal) x0 x1 x2 (ix1 r) = 0 + ∑ j : Fin 64, Ideal.exp (logit x0 x1 x2 r j - (μ : EReal)) := by
    rw [val_main_v12_apply, val_main_cst_1_apply]
    show Ideal.ofBits .f32 0x00000000#32 + _ = _
    rw [Ideal.ofBits_zero_f32]
    refine congrArg (0 + ·) (Finset.sum_congr rfl fun k _ => ?_)
    have e12 : idx_main_v12 (ix1 r) k = ix2 r k := funext fun a => Fin.ext (by match a with | ⟨0, _⟩ => rfl | ⟨1, _⟩ => rfl)
    rw [e12, h11]
  have e14 : idx_main_v13 (idx_main_v14 (ix2 r e)) = ix1 r := funext fun a => Fin.ext (by match a with | ⟨0, _⟩ => rfl)
  rw [val_main_v15_apply, val_main_v14_apply, val_main_v13_apply, e14, h12, h11]
  exact softmax_shift_of_isReal (fun j => logit x0 x1 x2 r j) (fun j => isReal_logit _ _ _ hx hW hb r j) (μ : EReal) ⟨μ, rfl⟩ e

end Cert.ReferenceIdeal.RouterValue

end
-- ==== Proof.FiniteInputs.lean ====
/-
  What the precondition says: every entry of `x`, `W` and `b` is a real number.

  The printed precondition is the conjunction of three `jnp.all(|a| < +∞)` tests, one per argument array. It is all
  ones exactly when each test is; a test by `and` over every entry is one exactly when every entry passes; and an
  extended real whose absolute value `max a (−a)` is below +∞ is neither infinity, so it is a real.
-/
import proofs.«138617_g22857815949987_cont_8to1_1636_20_alg».proof.Proof.Gen.Pre_finite_inputs
import proofs.«138617_g22857815949987_cont_8to1_1636_20_alg».proof.Proof.RouterSpec
import Idealize.ShloMosaic.Lib.ReduceAll
import Idealize.ShloMosaic.Lib.Affine

noncomputable section

namespace Cert.Pre_finite_inputs.Finite

open Cert.Pre_finite_inputs Cert.Pre_finite_inputs.Gen Cert.Router
open Idealize.ShloMosaic Idealize.ShloMosaic.ValueIdx

instance : Subsingleton S_.Idx := ⟨fun a b => funext fun d => d.elim0⟩

theorem posInf : Ideal.ofBits .f32 0x7F800000#32 = (⊤ : EReal) := by simp [Ideal.ofBits, Ideal.ieee]

theorem ofBool_eq_one {b : Bool} : BitVec.ofBool b = 1#1 ↔ b = true := by cases b <;> decide

/-- An extended real whose absolute value tests below +∞ is a real number. -/
theorem isReal_of_test (a : EReal) (h : Ideal.cmp .olt (max a (-a)) (Ideal.ofBits .f32 0x7F800000#32) = 1#1) : IsReal a := by
  rw [posInf] at h
  have hlt : max a (-a) < ⊤ := by
    unfold Ideal.cmp at h
    exact of_decide_eq_true (ofBool_eq_one.mp h)
  induction a using EReal.rec with
  | bot => exact absurd hlt (by simp)
  | coe r => exact ⟨r, rfl⟩
  | top => exact absurd hlt (by simp)

/-- Where the precondition holds, the three argument arrays hold real numbers only. -/
theorem all_real (a0 : FVec Ideal S8192x4096 .f32) (a1 : FVec Ideal S64x4096 .f32) (a2 : FVec Ideal S64 .f32)
    (h : fn (F := Ideal) a0 a1 a2 = fun _ => 1#1) :
    (∀ i, IsReal (a0 i)) ∧ (∀ i, IsReal (a1 i)) ∧ (∀ i, IsReal (a2 i)) := by
  have h0 := congrFun h ix0
  dsimp only [fn] at h0
  obtain ⟨h01, h2⟩ := IntOp.andi_eq_one.mp h0
  obtain ⟨h0', h1⟩ := IntOp.andi_eq_one.mp h01
  refine ⟨fun i => isReal_of_test _ ?_, fun i => isReal_of_test _ ?_, fun i => isReal_of_test _ ?_⟩
  · exact Host.reduce_andi_all _ _ _ _ _ h0' i
  · exact Host.reduce_andi_all _ _ _ _ _ h1 i
  · exact Host.reduce_andi_all _ _ _ _ _ h2 i

end Cert.Pre_finite_inputs.Finite

end
-- ==== Proof.lean ====
/-
  The expert router: `softmax(x · Wᵀ + b)` over 8192 tokens, 4096 hidden coordinates and 64 experts, as a pipelined
  TensorCore kernel against `jax.nn.softmax` of the same logits.

  The kernel walks 22 blocks of 384 token rows (the last overhanging the array by 256 rows); each point forms its block
  of logits, exponentiates, and divides every row by its own sum — with no subtraction of the row maximum. The reference
  subtracts each row's maximum before exponentiating. At exact arithmetic the two agree on finite inputs, because then
  every logit and every row maximum is a real number and the factor `exp (−max)` cancels between numerator and
  denominator; the precondition (every input finite) is used exactly there.

  The five claims:
    * the word-level kernel and the idealized kernel each run to the end without a fault and leave `x`, `W`, `b`
      unchanged (the body only loads its input buffers, and nothing it does can fault on any contents — in particular
      not on the unnamed words the last block's staging rows hold past the array's end);
    * the reference runs likewise (its generated run, the result dropped);
    * the idealization rewrote no operation, so there is nothing to preserve;
    * both idealized programs end with the result array at the routing probabilities `Cert.Router.probs x W b`: the
      kernel block by block (each entry of a block reads one row of `x` only, and the blocks cover the rows), the
      reference by the shift law.
-/
import proofs.«138617_g22857815949987_cont_8to1_1636_20_alg».proof.Defs
import proofs.«138617_g22857815949987_cont_8to1_1636_20_alg».proof.Proof.Gen.Kernel
import proofs.«138617_g22857815949987_cont_8to1_1636_20_alg».proof.Proof.Gen.KernelIdeal
import proofs.«138617_g22857815949987_cont_8to1_1636_20_alg».proof.Proof.Gen.ReferenceIdeal
import proofs.«138617_g22857815949987_cont_8to1_1636_20_alg».proof.Proof.Gen.Pre_finite_inputs
import proofs.«138617_g22857815949987_cont_8to1_1636_20_alg».proof.Proof.Gen.ReferenceIdeal.Run
import proofs.«138617_g22857815949987_cont_8to1_1636_20_alg».proof.Proof.Gen.ReferenceIdeal.Read
import proofs.«138617_g22857815949987_cont_8to1_1636_20_alg».proof.Proof.KernelBody
import proofs.«138617_g22857815949987_cont_8to1_1636_20_alg».proof.Proof.KernelIdealBody
import proofs.«138617_g22857815949987_cont_8to1_1636_20_alg».proof.Proof.KernelIdealValue
import proofs.«138617_g22857815949987_cont_8to1_1636_20_alg».proof.Proof.ReferenceValue
import proofs.«138617_g22857815949987_cont_8to1_1636_20_alg».proof.Proof.FiniteInputs
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Body.frame m ρ

/-- So does the idealized kernel. -/
theorem frame_kernelIdeal : Cert.frame_KernelIdeal := fun m ρ _ => Cert.KernelIdeal.Body.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at the routing probabilities of the arguments: the kernel by its run
    read block by block, the reference by its run and the shift law on the finite logits the precondition gives. -/
theorem algebraic : Cert.algebraic_KernelIdeal_ReferenceIdeal := by
  intro m ρ m' ρ' hpre hagree
  refine ⟨fun c => Cert.Router.probs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RouterValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW, hb⟩ := Cert.Pre_finite_inputs.Finite.all_real _ _ _ (hpre c)
  rw [Cert.ReferenceIdeal.Read.val_main_v15_eq, (hagree c).1, (hagree c).2.1, (hagree c).2.2]
  exact Cert.ReferenceIdeal.RouterValue.reference_eq _ _ _ hx hW hb

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
